-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x768 .f32) (main_arg1 : FVec F S64x768 .f32) (main_arg2 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x768 : Shape := ⟨2, ![32768, 768]⟩
abbrev S64x768 : Shape := ⟨2, ![64, 768]⟩
abbrev S64 : Shape := ⟨1, ![64]⟩
abbrev S1x64 : Shape := ⟨2, ![1, 64]⟩
abbrev S64x32768 : Shape := ⟨2, ![64, 32768]⟩
abbrev S4096x768 : Shape := ⟨2, ![4096, 768]⟩
abbrev S64x4096 : Shape := ⟨2, ![64, 4096]⟩
abbrev S64x1 : Shape := ⟨2, ![64, 1]⟩
abbrev S32768x64 : Shape := ⟨2, ![32768, 64]⟩

abbrev nBuf : Space → Nat
  | .hbm => 8
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S1x64, .f32⟩
  | .hbm, ⟨4, _⟩ => ⟨S64x32768, .f32⟩
  | .hbm, ⟨5, _⟩ => ⟨S64x32768, .f32⟩
  | .hbm, ⟨6, _⟩ => ⟨S32768x64, .f32⟩
  | .hbm, ⟨7, _⟩ => ⟨S32768x64, .f32⟩
  | .local _ .vmem, ⟨0, _⟩ => ⟨S64x768, .f32⟩
  | .local _ .vmem, ⟨1, _⟩ => ⟨S1x64, .f32⟩
  | .local _ .vmem, ⟨2, _⟩ => ⟨S4096x768, .f32⟩
  | .local _ .vmem, ⟨3, _⟩ => ⟨S4096x768, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S4096x768_S4096x768_0_0 : ∀ a, (![0, 0] : Fin 2 → Nat) a + S4096x768.size a ≤ S4096x768.size a
  h_S4096x768 : 0 < S4096x768.numel
  bitsLt_bf16_f32 : FTy.bits .bf16 < FTy.bits .f32
  inb_S64x768_S64x768_0_0 : ∀ a, (![0, 0] : Fin 2 → Nat) a + S64x768.size a ≤ S64x768.size a
  h_S64x768 : 0 < S64x768.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x4096 : S64x1.Broadcasts S64x4096
  inb_S64x4096_S64x4096_0_0 : ∀ a, (![0, 0] : Fin 2 → Nat) a + S64x4096.size a ≤ S64x4096.size a
  h_S64x4096 : 0 < S64x4096.numel
  transposes_S64x32768_S32768x64_1_0 : S64x32768.Transposes [1, 0] S32768x64
  dot_S64x768_S4096x768_S64x4096_1_1_0_0_n_n_wf : DotDims.WF S64x768 S4096x768 S64x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x768.size a ≤ S64x768.size a
  hwx0_0 : ∀ i : grid0.Coords, EltTy.bits .f32 = 32 ∨ (Rect.block (s := S64x768) S64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x768.size a ≤ S32768x768.size a
  hwx0_2 : ∀ i : grid0.Coords, EltTy.bits .f32 = 32 ∨ (Rect.block (s := S32768x768) S4096x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x32768.size a
  hwx0_3 : ∀ i : grid0.Coords, EltTy.bits .f32 = 32 ∨ (Rect.block (s := S64x32768) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x32768.size a
  hwx0_4 : ∀ i : grid0.Coords, EltTy.bits .f32 = 32 ∨ (Rect.block (s := S64x32768) S64x4096.size (cc0_transform_4 i) (hinb0_4 i)).WholeWords (EltTy.packing .f32)

variable [Facts₀]

def dot_S64x768_S4096x768_S64x4096_1_1_0_0_n_n : DotDims S64x768 S4096x768 S64x4096 where
  lhsContracting := [1]
  rhsContracting := [1]
  lhsNonContracting := [0]
  rhsNonContracting := [0]
  lhsBatch := []
  rhsBatch := []
  wf := dot_S64x768_S4096x768_S64x4096_1_1_0_0_n_n_wf

abbrev win0_0 : Pipeline.Window sig grid0 :=
  Pipeline.Window.ofSpec (Memref.whole main_arg1) S64x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768x64, .f32⟩
  | .hbm, ⟨15, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩

abbrev nD : Nat := 1
abbrev τ : Topo := Topo.v7x

variable {F : FTy → Type} [FloatOps F]

class Facts₀ : Prop where
  transposes_S64x768_S768x64_1_0 : S64x768.Transposes [1, 0] S768x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.Spec.lean ====
/-
  The router gate as one function of its three argument arrays, over the extended reals.

  For a token `r` (a row of the feature matrix `x`) and an expert `e` (a row of the weight matrix `w`) the
  logit is the token's row against the expert's row, plus the expert's bias, clamped to [-10000, 10000]:
      logit r e = min hi (max lo (∑ₖ x(r, k) · w(e, k) + b(e))).
  `gate` is the whole 32768 × 64 array of logits. `gateT` is the same numbers laid out with the experts along
  the rows (64 × 32768), each product written with the weight first and the bias read from a 1 × 64 row: the
  order of the two factors does not matter, since multiplication of extended reals commutes, so no
  finiteness of the entries is needed to pass from one layout to the other (`logitT_eq`).
-/
import Idealize.ShloMosaic.PureOps.Ideal
import Idealize.ShloMosaic.Lib.ValueIdx

noncomputable section

namespace Cert.Router

open Idealize.ShloMosaic Idealize.ShloMosaic.ValueIdx

/-- The lower clamp bound: the extended real the f32 word of -10000 denotes. -/
abbrev lo : EReal := Ideal.ofBits .f32 0xC61C4000#32
/-- The upper clamp bound: the extended real the f32 word of 10000 denotes. -/
abbrev hi : EReal := Ideal.ofBits .f32 0x461C4000#32

/-- The logit of token `r` for expert `e`. -/
def logit (x : FVec Ideal ⟨2, ![32768, 768]⟩ .f32) (w : FVec Ideal ⟨2, ![64, 768]⟩ .f32) (b : FVec Ideal ⟨1, ![64]⟩ .f32)
    (r : Fin 32768) (e : Fin 64) : EReal :=
  min hi (max lo ((∑ k : Fin 768, x (ix2 r k) * w (ix2 e k)) + b (ix1 e)))

/-- All logits, tokens along the rows. -/
def gate (x : FVec Ideal ⟨2, ![32768, 768]⟩ .f32) (w : FVec Ideal ⟨2, ![64, 768]⟩ .f32) (b : FVec Ideal ⟨1, ![64]⟩ .f32) :
    FVec Ideal ⟨2, ![32768, 64]⟩ .f32 :=
  fun i => logit x w b (i 0) (i 1)

/-- The same logit with each product written weight first and the bias read from a one-row matrix. -/
def logitT (x : FVec Ideal ⟨2, ![32768, 768]⟩ .f32) (w : FVec Ideal ⟨2, ![64, 768]⟩ .f32) (b1 : FVec Ideal ⟨2, ![1, 64]⟩ .f32)
    (e : Fin 64) (r : Fin 32768) : EReal :=
  min hi (max lo ((∑ k : Fin 768, w (ix2 e k) * x (ix2 r k)) + b1 (ix2 (0 : Fin 1) e)))

/-- All logits, experts along the rows. -/
def gateT (x : FVec Ideal ⟨2, ![32768, 768]⟩ .f32) (w : FVec Ideal ⟨2, ![64, 768]⟩ .f32) (b1 : FVec Ideal ⟨2, ![1, 64]⟩ .f32) :
    FVec Ideal ⟨2, ![64, 32768]⟩ .f32 :=
  fun j => logitT x w b1 (j 0) (j 1)

/-- The two spellings agree when the one-row matrix holds the bias vector: the products commute. -/
theorem logitT_eq (x : FVec Ideal ⟨2, ![32768, 768]⟩ .f32) (w : FVec Ideal ⟨2, ![64, 768]⟩ .f32) (b : FVec Ideal ⟨1, ![64]⟩ .f32)
    (b1 : FVec Ideal ⟨2, ![1, 64]⟩ .f32) (hb : ∀ e : Fin 64, b1 (ix2 (0 : Fin 1) e) = b (ix1 e)) (e : Fin 64) (r : Fin 32768) :
    logitT x w b1 e r = logit x w b r e := by
  unfold logitT logit
  rw [hb e, Finset.sum_congr rfl fun k _ => mul_comm (w (ix2 e k)) (x (ix2 r k))]

end Cert.Router

end
-- ==== Proof.RefValue.lean ====
/-
  The reference computes the router gate: its result array, read one operation at a time, is `gate` of its
  three arguments. Entry (r, e) of the product of x with the transposed weights is the sum over k of
  x(r, k) · w(e, k); the bias vector, broadcast first to one row and then down the rows, contributes b(e);
  the clamp is a maximum with the lower bound followed by a minimum with the upper bound.
-/
import proofs.«133034_g45380624449555_cont_8to1c4_195_13_alg».proof.Proof.Gen.ReferenceIdeal.Read
import proofs.«133034_g45380624449555_cont_8to1c4_195_13_alg».proof.Proof.Spec

noncomputable section

namespace Cert.ReferenceIdeal.RefValue

open Cert.ReferenceIdeal Cert.ReferenceIdeal.Read Idealize.ShloMosaic Idealize.ShloMosaic.ValueIdx Cert.Router

/-- The reference's result is the gate of its arguments, entry by entry. -/
theorem result_eq_gate (x0 : (⟨S32768x768, .f32⟩ : BufTy).Contents (Elt Ideal)) (x1 : (⟨S64x768, .f32⟩ : BufTy).Contents (Elt Ideal))
    (x2 : (⟨S64, .f32⟩ : BufTy).Contents (Elt Ideal)) :
    val_main_v5 (F := Ideal) x0 x1 x2 = gate x0 x1 x2 := by
  funext i
  obtain ⟨r, e, rfl⟩ : ∃ (r : Fin 32768) (e : Fin 64), i = ix2 r e := ⟨i 0, i 1, eq_ix2 i⟩
  have el : ∀ k : Fin 768, lidx_main_v1 (ix2 r e) k = ix2 r k := fun k => funext fun a => Fin.ext (by
    match a with | ⟨0, _⟩ => rfl | ⟨1, _⟩ => rfl)
  have er : ∀ k : Fin 768, idx_main_v0 (ridx_main_v1 (ix2 r e) k) = ix2 e k := fun k => funext fun a => Fin.ext (by
    match a with | ⟨0, _⟩ => rfl | ⟨1, _⟩ => rfl)
  have eb : idx_main_v2 (idx_main_v3 (ix2 r e)) = ix1 e := funext fun a => Fin.ext (by
    match a with | ⟨0, _⟩ => rfl)
  rw [val_main_v5_apply, val_main_call0_v4_apply, val_main_call0_v3_apply, val_main_cst_0_apply,
    val_main_call0_v2_apply, val_main_call0_v1_apply, val_main_call0_v0_apply, val_main_cst_apply,
    val_main_v4_apply, val_main_v1_apply, val_main_v3_apply, val_main_v2_apply]
  simp only [val_main_v0_apply, el, er, eb]
  rfl

end Cert.ReferenceIdeal.RefValue

end
-- ==== Proof.LibTransDot.lean ====
/-
  A matrix product against a transposed right operand, read at an index, at the extended reals.

  For a rank-2 product `[M, K] · [N, K]ᵀ → [M, N]` (one contracted axis: the left operand's columns against the right
  operand's COLUMNS, no batch axis) accumulated into the zero block, the entry at `(p, e)` is the finite sum over the
  contracted coordinate `k` of `lhs (p, k) · rhs (e, k)`: row `p` of the left operand against row `e` of the right one.
  The product's dimension record enters only through four coordinate facts about its operand index maps (each a one-line
  computation for a literal record), so the lemma serves any such record at any extents.
-/
import Idealize.ShloMosaic.Lib.ValueIdx
import Idealize.ShloMosaic.PureOps.Ideal.Laws

noncomputable section

namespace Cert.LibTransDot

open Idealize.ShloMosaic Idealize.ShloMosaic.ValueIdx

/-- `[M, K] · [N, K]ᵀ` into the zero accumulator, at `(p, e)`: `∑ₖ lhs (p, k) · rhs (e, k)`. The hypotheses say that the
    record contracts ONE axis of extent `K`, that the left operand is read at (output row, contracted coordinate) and the
    right operand at (output column, contracted coordinate). -/
theorem matmul_zero_apply {M K N : ℕ} {φ₁ φ₂ : FTy}
    (D : DotDims ⟨2, ![M, K]⟩ ⟨2, ![N, K]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![M, K]⟩ φ₁) (rhs : FVec Ideal ⟨2, ![N, K]⟩ φ₂) (p : Fin M) (e : Fin N) :
    matmul D none lhs rhs (constant (F := Ideal) ⟨2, ![M, N]⟩ .f32 0x00000000#32) (ix2 p e)
      = ∑ k : Fin K, lhs (ix2 p k) * rhs (ix2 e k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 e k := funext fun a => Fin.ext (by
    match a with
    | ⟨0, _⟩ => exact hr0 _ _
    | ⟨1, _⟩ => exact (hr1 _ _).trans hk)
  rw [el, er]

end Cert.LibTransDot

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPoint.lean ====
/-
  What the kernel body stores, read at one entry. From a 4096 × 768 block of tokens `v0`, the 64 × 768 weights
  `v2` and the 1 × 64 bias row `v5`, the stored 64 × 4096 block holds at (e, q) the clamp of
      ∑ₖ v2(e, k) · v0(q, k) + v5(0, e):
  the matrix product contracts the feature axis of both operands (weights against the transposed tokens), the
  changes of float format on the way in are the identity on extended reals, and the bias row, turned into a
  column and spread along the lanes, contributes the entry of the row at the expert's position.
-/
import proofs.«133034_g45380624449555_cont_8to1c4_195_13_alg».proof.Proof.Gen.KernelIdeal.Skeleton
import proofs.«133034_g45380624449555_cont_8to1c4_195_13_alg».proof.Proof.LibTransDot
import proofs.«133034_g45380624449555_cont_8to1c4_195_13_alg».proof.Proof.LibColumn
import proofs.«133034_g45380624449555_cont_8to1c4_195_13_alg».proof.Proof.Spec
import Idealize.ShloMosaic.Lib.Pipeline.Value
import Idealize.ShloMosaic.Lib.ValueIdx

noncomputable section

namespace Cert.KernelIdeal.Point

open Cert.KernelIdeal Cert.KernelIdeal.Gen Idealize.ShloMosaic Idealize.ShloMosaic.ValueIdx Cert.Router

/-- The product's record, under a short name. -/
abbrev dotWX : DotDims S64x768 S4096x768 S64x4096 := dot_S64x768_S4096x768_S64x4096_1_1_0_0_n_n

/-- The left operand is read at the output's row … -/
theorem lhs0 (i : S64x4096.Idx) (q : dotWX.contr.Idx) : (dotWX.lhsIdx i q 0).val = (i 0).val := by
  unfold DotDims.lhsIdx
  rw [dif_neg (show ¬(0 : Fin S64x768.rank) ∈ dotWX.lhsBatch by decide), dif_pos (show (0 : Fin S64x768.rank) ∈ dotWX.lhsNonContracting by decide)]
  rfl
/-- … and the contracted coordinate; -/
theorem lhs1 (i : S64x4096.Idx) (q : dotWX.contr.Idx) : (dotWX.lhsIdx i q 1).val = (q ⟨0, by decide⟩).val :=
  dotWX.lhsIdx_val_of_single rfl i q
/-- the right operand at the output's column … -/
theorem rhs0 (i : S64x4096.Idx) (q : dotWX.contr.Idx) : (dotWX.rhsIdx i q 0).val = (i 1).val := by
  unfold DotDims.rhsIdx
  rw [dif_neg (show ¬(0 : Fin S4096x768.rank) ∈ dotWX.rhsBatch by decide), dif_pos (show (0 : Fin S4096x768.rank) ∈ dotWX.rhsNonContracting by decide)]
  rfl
/-- … and the contracted coordinate. -/
theorem rhs1 (i : S64x4096.Idx) (q : dotWX.contr.Idx) : (dotWX.rhsIdx i q 1).val = (q ⟨0, by decide⟩).val :=
  dotWX.rhsIdx_val_of_single rfl i q

/-- The bias row turned into a column and spread along the lanes reads, at (e, q), the row's entry at `e`. -/
theorem bias_apply (v5 : FVec Ideal S1x64 .f32) (hsc : S1x64.ShapeCasts S1x64) (htr : S1x64.Transposes [1, 0] S64x1)
    (hbc : S64x1.Broadcasts S64x4096) (e : Fin 64) (q : Fin 4096) :
    broadcastTo S64x4096 (transpose S64x1 [1, 0] (shapeCast S1x64 v5 hsc) htr) hbc (ix2 e q) = v5 (ix2 (0 : Fin 1) e) := by
  rw [LibColumn.broadcastTo_a1_ab_apply, shapeCast_self]
  exact transpose_apply [1, 0] v5 htr (ix2 e (0 : Fin 1)) (ix2 (0 : Fin 1) e) (fun b => match b with
    | ⟨0, _⟩ => rfl
    | ⟨1, _⟩ => rfl)

/-- THE STORED BLOCK at (e, q). -/
theorem pay_apply (v0 : Vec Ideal S4096x768 .f32) (v2 : Vec Ideal S64x768 .f32) (v5 : Vec Ideal S1x64 .f32) (e : Fin 64) (q : Fin 4096) :
    k0_pay1 (F := Ideal) v0 v2 v5 (ix2 e q)
      = min hi (max lo ((∑ k : Fin 768, v2 (ix2 e k) * v0 (ix2 q k)) + v5 (ix2 (0 : Fin 1) e))) := by
  unfold k0_pay1
  show min hi (max lo (matmul dotWX none (truncf .bf16 v2 _) (truncf .bf16 v0 _) (constant (F := Ideal) S64x4096 .f32 0x00000000#32) (ix2 e q)
    + broadcastTo S64x4096 (transpose S64x1 [1, 0] (shapeCast S1x64 v5 _) _) _ (ix2 e q))) = _
  rw [bias_apply]
  refine congrArg (fun s => min hi (max lo (s + v5 (ix2 (0 : Fin 1) e)))) ?_
  exact LibTransDot.matmul_zero_apply (M := 64) (K := 768) (N := 4096) dotWX rfl rfl lhs0 lhs1 rhs0 rhs1 _ _ e q

/-- ONE POINT OF THE GRID. If the token block `v0` is rows `T·4096 … T·4096 + 4095` of the feature matrix `X`, the
    weight block is the whole weight matrix and the bias block the whole bias row, then the stored block's entry at
    `y = (e, q)` is the transposed gate's entry at `(e, T·4096 + q)`: the 64 × 4096 block is columns
    `T·4096 … T·4096 + 4095` of the 64 × 32768 array of logits. -/
theorem point_eq (X : FVec Ideal S32768x768 .f32) (Wt : FVec Ideal S64x768 .f32) (B1 : FVec Ideal S1x64 .f32)
    (v0 : Vec Ideal S4096x768 .f32) (v2 : Vec Ideal S64x768 .f32) (v5 : Vec Ideal S1x64 .f32)
    (T : Nat) (hT : T < 8)
    (h0 : ∀ (q : Fin 4096) (k : Fin 768), v0 (ix2 q k) = X (ix2 (⟨T * 4096 + q.val, by omega⟩ : Fin 32768) k))
    (h2 : ∀ (e : Fin 64) (k : Fin 768), v2 (ix2 e k) = Wt (ix2 e k))
    (h5 : ∀ e : Fin 64, v5 (ix2 (0 : Fin 1) e) = B1 (ix2 (0 : Fin 1) e))
    (y : S64x4096.Idx) (i : S64x32768.Idx) (hi0 : (i 0).val = (y 0).val) (hi1 : (i 1).val = T * 4096 + (y 1).val) :
    k0_pay1 (F := Ideal) v0 v2 v5 y = gateT X Wt B1 i := by
  obtain ⟨e, q, rfl⟩ : ∃ (e : Fin 64) (q : Fin 4096), y = ix2 e q := ⟨y 0, y 1, eq_ix2 y⟩
  have hi : i = ix2 e (⟨T * 4096 + q.val, by omega⟩ : Fin 32768) := funext fun a => Fin.ext (by
    match a with
    | ⟨0, _⟩ => exact hi0
    | ⟨1, _⟩ => exact hi1)
  rw [hi, pay_apply]
  show _ = logitT X Wt B1 e (⟨T * 4096 + q.val, by omega⟩ : Fin 32768)
  unfold logitT
  simp only [h0, h2, h5]

end Cert.KernelIdeal.Point

end
-- ==== Proof.KernelBlocks.lean ====
/-
  From the grid's blocks to the two output arrays. The grid has eight points; at point `t` the body reads the whole
  weight matrix, the whole bias row and rows `4096·t … 4096·t + 4095` of the feature matrix, and writes back columns
  `4096·t … 4096·t + 4095` of each 64 × 32768 output. What a point writes back is therefore a block of ONE array, the
  transposed gate of the arrays the region finds; the eight column blocks cover the output (the block holding column
  `n` is the one at point `n / 4096`), so each output array ends holding the transposed gate.
-/
import proofs.«133034_g45380624449555_cont_8to1c4_195_13_alg».proof.Proof.Gen.KernelIdeal.Frame
import proofs.«133034_g45380624449555_cont_8to1c4_195_13_alg».proof.Proof.KernelPoint
import Idealize.ShloMosaic.Lib.Pipeline.Value

noncomputable section

namespace Cert.KernelIdeal.Blocks

open Cert.KernelIdeal Cert.KernelIdeal.Gen Cert.KernelIdeal.Point Idealize.ShloMosaic Idealize.ShloMosaic.TcCoe
open Idealize.ShloMosaic.ValueIdx Idealize.SL.Sem Cert.Router
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block index of every window at every point: the weights and the bias row are one block each, the tokens
    move down the rows with the point, the two outputs move along the columns with it. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem pt_lt (t : Fin cfg0.N) : t.val < 8 := by
  have h := t.isLt
  have hN : cfg0.N = 8 := N_0
  omega

/-- The token block at point `t` is rows `4096·t …` of the feature matrix. -/
theorem tokens_apply (c : Dev nD) (t : Fin cfg0.N) (q : Fin 4096) (k : Fin 768) :
    (iblk m c 2 t : Vec Ideal S4096x768 .f32) (ix2 q k)
      = (V m c main_arg0 : FVec Ideal S32768x768 .f32) (ix2 (⟨t.val * 4096 + q.val, by have := pt_lt t; omega⟩ : Fin 32768) k) := by
  obtain ⟨-, -, -, -, e0, e1, -⟩ := idx_facts t
  show V m c main_arg0 (((cfg0.win 2).blk t).view.emb (ix2 q k)) = _
  refine congrArg (V m c main_arg0) (funext fun a => Fin.ext ?_)
  match a with
  | ⟨0, _⟩ => show win0_2.index t (0 : Fin 2) * 4096 + 1 * q.val = t.val * 4096 + q.val; rw [e0]; omega
  | ⟨1, _⟩ => show win0_2.index t (1 : Fin 2) * 768 + 1 * k.val = k.val; rw [e1]; omega

/-- The weight block at every point is the weight matrix. -/
theorem weights_apply (c : Dev nD) (t : Fin cfg0.N) (e : Fin 64) (k : Fin 768) :
    (iblk m c 0 t : Vec Ideal S64x768 .f32) (ix2 e k) = (V m c main_arg1 : FVec Ideal S64x768 .f32) (ix2 e k) := by
  obtain ⟨e0, e1, -⟩ := idx_facts t
  show V m c main_arg1 (((cfg0.win 0).blk t).view.emb (ix2 e k)) = _
  refine congrArg (V m c main_arg1) (funext fun a => Fin.ext ?_)
  match a with
  | ⟨0, _⟩ => show win0_0.index t (0 : Fin 2) * 64 + 1 * e.val = e.val; rw [e0]; omega
  | ⟨1, _⟩ => show win0_0.index t (1 : Fin 2) * 768 + 1 * k.val = k.val; rw [e1]; omega

/-- The bias block at every point is the bias row. -/
theorem bias_row_apply (c : Dev nD) (t : Fin cfg0.N) (e : Fin 64) :
    (iblk m c 1 t : Vec Ideal S1x64 .f32) (ix2 (0 : Fin 1) e) = (V m c main_v0 : FVec Ideal S1x64 .f32) (ix2 (0 : Fin 1) e) := by
  obtain ⟨-, -, e0, e1, -⟩ := idx_facts t
  show V m c main_v0 (((cfg0.win 1).blk t).view.emb (ix2 (0 : Fin 1) e)) = _
  refine congrArg (V m c main_v0) (funext fun a => Fin.ext ?_)
  match a with
  | ⟨0, _⟩ => show win0_1.index t (0 : Fin 2) * 1 + 1 * 0 = 0; rw [e0]
  | ⟨1, _⟩ => show win0_1.index t (1 : Fin 2) * 64 + 1 * e.val = e.val; rw [e1]; omega

/-- The array both outputs end holding: the transposed gate of the arrays as the region finds them. -/
abbrev logitsT (c : Dev nD) : FVec Ideal S64x32768 .f32 :=
  gateT (V m c main_arg0) (V m c main_arg1) (V m c main_v0)

/-! ## The first output -/

/-- What point `t` writes back to the first output is block `t` of the transposed gate. -/
theorem flushed3_eq (c : Dev nD) (t : Fin cfg0.N) :
    (dats m 0 c).flushed 3 t = ((cfg0.win 3).blk t).view.read (Elt Ideal) (logitsT m c) := by
  show (cfg0.win 3).cut (grid0.coords t) ((dats m 0 c).after 3 t) = _
  rw [after0_3]
  unfold out0_3
  rw [View.canon_unit_zero hz]
  simp only [View.ld_unit_zero (S := S4096x768) hz, View.ld_unit_zero (S := S64x768) hz, View.ld_unit_zero (S := S1x64) hz]
  obtain ⟨-, -, -, -, -, -, e0, e1, -⟩ := idx_facts t
  funext j
  show k0_pay1 (F := Ideal) (iblk m c 2 t) (iblk m c 0 t) (iblk m c 1 t) j = logitsT m c (((cfg0.win 3).blk t).view.emb j)
  refine point_eq (V m c main_arg0) (V m c main_arg1) (V m c main_v0) (iblk m c 2 t) (iblk m c 0 t) (iblk m c 1 t) t.val (pt_lt t)
    (tokens_apply m c t) (weights_apply m c t) (bias_row_apply m c t) j (((cfg0.win 3).blk t).view.emb j) ?_ ?_
  · show win0_3.index t (0 : Fin 2) * 64 + 1 * (j 0).val = (j 0).val; rw [e0]; omega
  · show win0_3.index t (1 : Fin 2) * 4096 + 1 * (j 1).val = t.val * 4096 + (j 1).val; rw [e1]; omega

/-- An index of the first output is in point `t`'s block iff each coordinate is in the block's range. -/
theorem mem_blk3 (t : Fin cfg0.N) (i : S64x32768.Idx) :
    i ∈ ((cfg0.win 3).blk t).view.set ↔ ∀ a : Fin 2, win0_3.index t a * S64x4096.size a ≤ (i a).val ∧ (i a).val < win0_3.index t a * S64x4096.size a + S64x4096.size a := by
  show i ∈ ((View.whole main_v1_0).slice (win0_3.rect t)).set ↔ _
  rw [View.set_slice_whole, Rect.mem_set_unit]
  exact Iff.rfl

/-- Column `n` of the first output lies in the block written back at point `n / 4096`. -/
theorem cover3 (i : S64x32768.Idx) : ∃ t : Fin cfg0.N, (cfg0.win 3).flush t = true ∧ i ∈ ((cfg0.win 3).blk t).view.set := by
  have hi0 : (i 0).val < 64 := (i 0).isLt
  have hi1 : (i 1).val < 32768 := (i 1).isLt
  obtain ⟨t, ht⟩ : ∃ t : Fin cfg0.N, t.val = (i 1).val / 4096 :=
    ⟨⟨(i 1).val / 4096, by rw [show cfg0.N = 8 from N_0]; omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 64 ≤ (i 0).val ∧ (i 0).val < win0_3.index t (0 : Fin 2) * 64 + 64; rw [e0]; omega
  | ⟨1, _⟩ => show win0_3.index t (1 : Fin 2) * 4096 ≤ (i 1).val ∧ (i 1).val < win0_3.index t (1 : Fin 2) * 4096 + 4096; rw [e1, ht]; omega

/-- The first output after the run. -/
theorem final3 (c : Dev nD) : (dats m 0 c).arrAt 3 cfg0.N = logitsT m c :=
  (dats m 0 c).arrAt_eq_of_cover 3 (logitsT m c) (fun t _ => flushed3_eq m c t) cover3

/-! ## The second output: the same stores into the other array -/

/-- What point `t` writes back to the second output is block `t` of the transposed gate. -/
theorem flushed4_eq (c : Dev nD) (t : Fin cfg0.N) :
    (dats m 0 c).flushed 4 t = ((cfg0.win 4).blk t).view.read (Elt Ideal) (logitsT m c) := by
  show (cfg0.win 4).cut (grid0.coords t) ((dats m 0 c).after 4 t) = _
  rw [after0_4]
  unfold out0_4
  rw [View.canon_unit_zero hz]
  simp only [View.ld_unit_zero (S := S4096x768) hz, View.ld_unit_zero (S := S64x768) hz, View.ld_unit_zero (S := S1x64) hz]
  obtain ⟨-, -, -, -, -, -, -, -, e0, e1⟩ := idx_facts t
  funext j
  show k0_pay1 (F := Ideal) (iblk m c 2 t) (iblk m c 0 t) (iblk m c 1 t) j = logitsT m c (((cfg0.win 4).blk t).view.emb j)
  refine point_eq (V m c main_arg0) (V m c main_arg1) (V m c main_v0) (iblk m c 2 t) (iblk m c 0 t) (iblk m c 1 t) t.val (pt_lt t)
    (tokens_apply m c t) (weights_apply m c t) (bias_row_apply m c t) j (((cfg0.win 4).blk t).view.emb j) ?_ ?_
  · show win0_4.index t (0 : Fin 2) * 64 + 1 * (j 0).val = (j 0).val; rw [e0]; omega
  · show win0_4.index t (1 : Fin 2) * 4096 + 1 * (j 1).val = t.val * 4096 + (j 1).val; rw [e1]; omega

/-- An index of the second output is in point `t`'s block iff each coordinate is in the block's range. -/
theorem mem_blk4 (t : Fin cfg0.N) (i : S64x32768.Idx) :
    i ∈ ((cfg0.win 4).blk t).view.set ↔ ∀ a : Fin 2, win0_4.index t a * S64x4096.size a ≤ (i a).val ∧ (i a).val < win0_4.index t a * S64x4096.size a + S64x4096.size a := by
  show i ∈ ((View.whole main_v1_1).slice (win0_4.rect t)).set ↔ _
  rw [View.set_slice_whole, Rect.mem_set_unit]
  exact Iff.rfl

/-- Column `n` of the second output lies in the block written back at point `n / 4096`. -/
theorem cover4 (i : S64x32768.Idx) : ∃ t : Fin cfg0.N, (cfg0.win 4).flush t = true ∧ i ∈ ((cfg0.win 4).blk t).view.set := by
  have hi0 : (i 0).val < 64 := (i 0).isLt
  have hi1 : (i 1).val < 32768 := (i 1).isLt
  obtain ⟨t, ht⟩ : ∃ t : Fin cfg0.N, t.val = (i 1).val / 4096 :=
    ⟨⟨(i 1).val / 4096, by rw [show cfg0.N = 8 from N_0]; omega⟩, rfl⟩
  obtain ⟨-, -, -, -, -, -, -, -, e0, e1⟩ := idx_facts t
  refine ⟨t, flush0_4 t, ?_⟩
  rw [mem_blk4]
  intro a
  match a with
  | ⟨0, _⟩ => show win0_4.index t (0 : Fin 2) * 64 ≤ (i 0).val ∧ (i 0).val < win0_4.index t (0 : Fin 2) * 64 + 64; rw [e0]; omega
  | ⟨1, _⟩ => show win0_4.index t (1 : Fin 2) * 4096 ≤ (i 1).val ∧ (i 1).val < win0_4.index t (1 : Fin 2) * 4096 + 4096; rw [e1, ht]; omega

/-- The second output after the run. -/
theorem final4 (c : Dev nD) : (dats m 0 c).arrAt 4 cfg0.N = logitsT m c :=
  (dats m 0 c).arrAt_eq_of_cover 4 (logitsT m c) (fun t _ => flushed4_eq m c t) cover4

end Cert.KernelIdeal.Blocks

end
-- ==== Proof.KernelRun.lean ====
/-
  The kernel program's run, read. Before the region the bias vector is laid out as one row; after it each 64 × 32768
  output is transposed into a 32768 × 64 result. The region leaves both outputs at the transposed gate of the arrays
  it finds, the row it finds holds the bias vector entry for entry, and transposing the transposed gate gives the gate:
  both results end at `gate` of the three argument arrays.
-/
import proofs.«133034_g45380624449555_cont_8to1c4_195_13_alg».proof.Proof.Gen.KernelIdeal.Frame
import proofs.«133034_g45380624449555_cont_8to1c4_195_13_alg».proof.Proof.KernelBlocks
import Idealize.ShloMosaic.Lib.StableHlo.Run
import Idealize.ShloMosaic.Lib.Pipeline.Value

noncomputable section

namespace Cert.KernelIdeal.Run

open Cert.KernelIdeal Cert.KernelIdeal.Gen Cert.KernelIdeal.Blocks Idealize.ShloMosaic Idealize.ShloMosaic.TcCoe
open Idealize.ShloMosaic.ValueIdx Idealize.SL.Sem Cert.Router
open Idealize.ShloMosaic.Pipeline (Dat)

variable (m : (ℓ : Loc nD τ sig) → Buf (Elt Ideal) ℓ) (ρ : Dev nD → PrngReg)

/-- A vector of 64 entries laid out as one row reads, at (0, e), the vector at `e`: both sit at row-major position `e`. -/
theorem row_of_vector_apply (x : FVec Ideal S64 .f32) (h : S64.ShapeCasts S1x64) (u : Fin 1) (e : Fin 64) :
    shapeCast S1x64 x h (ix2 u e) = x (ix1 e) :=
  shapeCast_apply x h _ _ (by
    have hu : u.val = 0 := by omega
    rw [Shape.rowMajor_val_two, Shape.rowMajor_val_one]
    show e.val = u.val * 64 + e.val
    rw [hu]; omega)

/-- The row the region finds is the bias vector reshaped. -/
theorem V_bias_row (c : Dev nD) :
    (V m c main_v0 : FVec Ideal S1x64 .f32) = shapeCast S1x64 (m ((c : Thread nD τ).loc main_arg2)) shapeCasts_S64_S1x64 := by
  show StableHlo.after hostOps0 (fun b => m (c, b)) (Proc.devRef .tc main_v0) = _
  after_results
  rfl

/-- The first result after the run: the first output transposed. -/
theorem tail_v2 (c : Dev nD) :
    Pipeline.afterTail₀ cfgs (dats m) 0 (V0 m) [hostOps1] c main_v2
      = transpose S32768x64 [1, 0] ((dats m 0 c).arrAt 3 cfg0.N) transposes_S64x32768_S32768x64_1_0 := by
  unfold Pipeline.afterTail₀
  show StableHlo.after hostOps1 _ (Proc.devRef .tc main_v2) = _
  after_results
  exact congrArg (fun a => transpose S32768x64 [1, 0] a transposes_S64x32768_S32768x64_1_0)
    (Pipeline.withArrays_arr spec0 launch0.win.arr_inj c (V0 m c) (fun w => (dats m 0 c).arrAt w cfg0.N) 3)

/-- The second result after the run: the second output transposed. -/
theorem tail_v3 (c : Dev nD) :
    Pipeline.afterTail₀ cfgs (dats m) 0 (V0 m) [hostOps1] c main_v3
      = transpose S32768x64 [1, 0] ((dats m 0 c).arrAt 4 cfg0.N) transposes_S64x32768_S32768x64_1_0 := by
  unfold Pipeline.afterTail₀
  show StableHlo.after hostOps1 _ (Proc.devRef .tc main_v3) = _
  after_results
  exact congrArg (fun a => transpose S32768x64 [1, 0] a transposes_S64x32768_S32768x64_1_0)
    (Pipeline.withArrays_arr spec0 launch0.win.arr_inj c (V0 m c) (fun w => (dats m 0 c).arrAt w cfg0.N) 4)

/-- The transposed gate of the arrays the region finds, transposed back, is the gate of the argument arrays: entry
    (r, e) of the transpose is entry (e, r), the region finds the features and the weights as launched, and the row it
    finds holds the bias vector. -/
theorem transposed_eq_gate (c : Dev nD) (h : S64x32768.Transposes [1, 0] S32768x64) :
    transpose S32768x64 [1, 0] (logitsT m c) h
      = gate (m ((c : Thread nD τ).loc main_arg0)) (m ((c : Thread nD τ).loc main_arg1)) (m ((c : Thread nD τ).loc main_arg2)) := by
  funext i
  obtain ⟨r, e, rfl⟩ : ∃ (r : Fin 32768) (e : Fin 64), i = ix2 r e := ⟨i 0, i 1, eq_ix2 i⟩
  rw [transpose_apply [1, 0] (logitsT m c) h (ix2 r e) (ix2 e r) (fun b => match b with
    | ⟨0, _⟩ => rfl
    | ⟨1, _⟩ => rfl)]
  show logitT (V m c main_arg0) (V m c main_arg1) (V m c main_v0) e r = logit _ _ _ r e
  rw [V_main_arg0, V_main_arg1]
  exact logitT_eq _ _ _ _ (fun e' => by rw [V_bias_row]; exact row_of_vector_apply _ _ _ _) e r

/-- THE RUN: every weakly fair execution of the kernel program terminates with both results at the gate of the argument
    arrays, the arguments unchanged. -/
theorem run : θ_run defs (onTc (τ := τ) (main (F := Ideal))) ⟨m, fun _ => 0, ρ⟩ fun r => ∀ c : Dev nD,
      r.2.mem ((c.tc : Thread nD τ).loc main_v2)
        = gate (m ((c : Thread nD τ).loc main_arg0)) (m ((c : Thread nD τ).loc main_arg1)) (m ((c : Thread nD τ).loc main_arg2))
      ∧ r.2.mem ((c.tc : Thread nD τ).loc main_v3)
        = gate (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans
        ((tail_v2 m c).trans (by rw [final3]; exact transposed_eq_gate m c _)),
      ((h c).2 main_v3 (Pipeline.mem_restRefs_of main_v3 (by decide) (by decide))).trans
        ((tail_v3 m c).trans (by rw [final4]; exact transposed_eq_gate m c _)),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.Run

end
-- ==== Proof.lean ====
/-
  A router gate computed two ways gives the same logits over the extended reals.

  The reference multiplies the 32768 × 768 feature matrix by the transposed 64 × 768 weight matrix, adds the bias
  vector along the rows and clamps every entry to [-10000, 10000]; it returns that array twice. The kernel computes
  the transposed result directly: eight grid points, each multiplying the weights by the transpose of a block of 4096
  tokens (the feature axis contracted on both sides), adding the bias as a column and clamping, and writing the
  64 × 4096 block into columns 4096·t … of two 64 × 32768 outputs, which the program then transposes.

  At the ideal instance a change of float format is the identity and a matrix product is the exact finite sum, so
  entry (r, e) is min(hi, max(lo, ∑ₖ x(r, k) · w(e, k) + b(e))) on both sides (`Cert.Router.gate`): the kernel writes each
  product with the factors in the other order, which is the same extended real since multiplication commutes, and the
  clamp bounds are the same two words. No law that needs finite entries is used, so the precondition is never opened.

  The modules: `Spec` states the gate and its transposed layout; `RefValue` reads the reference's operations at an
  index; `KernelPoint` reads what one grid point stores; `KernelBlocks` assembles the eight column blocks into each
  output array; `KernelRun` reads the reshape before the region and the transposes after it. The frames are the
  generated ones, the reference's being its generated run with the results dropped; nothing was rewritten by the
  idealization, so the fourth conjunct is `True`.
-/
import proofs.«133034_g45380624449555_cont_8to1c4_195_13_alg».proof.Defs
import proofs.«133034_g45380624449555_cont_8to1c4_195_13_alg».proof.Proof.Gen.Kernel
import proofs.«133034_g45380624449555_cont_8to1c4_195_13_alg».proof.Proof.Gen.Kernel.Skeleton
import proofs.«133034_g45380624449555_cont_8to1c4_195_13_alg».proof.Proof.Gen.Kernel.Launch
import proofs.«133034_g45380624449555_cont_8to1c4_195_13_alg».proof.Proof.Gen.Kernel.Points
import proofs.«133034_g45380624449555_cont_8to1c4_195_13_alg».proof.Proof.Gen.Kernel.Frame
import proofs.«133034_g45380624449555_cont_8to1c4_195_13_alg».proof.Proof.Gen.KernelIdeal
import proofs.«133034_g45380624449555_cont_8to1c4_195_13_alg».proof.Proof.Gen.KernelIdeal.Skeleton
import proofs.«133034_g45380624449555_cont_8to1c4_195_13_alg».proof.Proof.Gen.KernelIdeal.Launch
import proofs.«133034_g45380624449555_cont_8to1c4_195_13_alg».proof.Proof.Gen.KernelIdeal.Points
import proofs.«133034_g45380624449555_cont_8to1c4_195_13_alg».proof.Proof.Gen.KernelIdeal.Frame
import proofs.«133034_g45380624449555_cont_8to1c4_195_13_alg».proof.Proof.Gen.ReferenceIdeal
import proofs.«133034_g45380624449555_cont_8to1c4_195_13_alg».proof.Proof.Gen.Pre_finite_inputs
import proofs.«133034_g45380624449555_cont_8to1c4_195_13_alg».proof.Proof.Gen.ReferenceIdeal.Run
import proofs.«133034_g45380624449555_cont_8to1c4_195_13_alg».proof.Proof.Gen.ReferenceIdeal.Read
import proofs.«133034_g45380624449555_cont_8to1c4_195_13_alg».proof.Proof.RefValue
import proofs.«133034_g45380624449555_cont_8to1c4_195_13_alg».proof.Proof.KernelRun
import Idealize.ShloMosaic.Adequacy
import Idealize.ShloMosaic.Init

noncomputable section

namespace Cert.Proof

open Idealize.ShloMosaic Idealize.SL.Sem Cert.Router

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the three arguments both programs end with every result at the gate of those arguments. -/
theorem algebraic : Cert.algebraic_KernelIdeal_ReferenceIdeal := by
  intro m ρ m' ρ' _ hagree
  refine ⟨fun c => gate (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => gate (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun r h c => ?_) (Cert.ReferenceIdeal.Value.run (F := Ideal) m' ρ')
  have hv := (h c).1.trans ((Cert.ReferenceIdeal.Read.val_main_v5_eq _ _ _).trans
    (Cert.ReferenceIdeal.RefValue.result_eq_gate _ _ _))
  rw [(hagree c).1, (hagree c).2.1, (hagree c).2.2] at hv
  exact ⟨hv, hv, (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
